-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x2 .f32) (main_arg15 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg14
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg15 main_v63 main_v67

def fn_part2 {F : FTy → Type} [FloatOps F] (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x256 .f32) (main_arg1 : IVec S2x1600000 32) (main_arg2 : FVec F S256x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x128 : Shape := ⟨2, ![50000, 128]⟩
abbrev S2000x256 : Shape := ⟨2, ![2000, 256]⟩
abbrev S2000x128 : Shape := ⟨2, ![2000, 128]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S2000x64 : Shape := ⟨2, ![2000, 64]⟩
abbrev S1600000x64 : Shape := ⟨2, ![1600000, 64]⟩
abbrev S1x64 : Shape := ⟨2, ![1, 64]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 110
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x2, .f32⟩
  | .hbm, ⟨15, _⟩ => ⟨S2, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S50000, .f32⟩
  | .hbm, ⟨24, _⟩ => ⟨S1600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S50000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S50000x128, .f32⟩
  | .hbm, ⟨67, _⟩ => ⟨S1600000x1, .i32⟩
  | .hbm, ⟨68, _⟩ => ⟨S50000x128, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S50000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S1600000x1, .f32⟩
  | .hbm, ⟨91, _⟩ => ⟨S1600000x64, .f32⟩
  | .hbm, ⟨92, _⟩ => ⟨S1600000x64, .f32⟩
  | .hbm, ⟨93, _⟩ => ⟨S_, .f32⟩
  | .hbm, ⟨94, _⟩ => ⟨S50000x64, .f32⟩
  | .hbm, ⟨95, _⟩ => ⟨S1600000x1, .i32⟩
  | .hbm, ⟨96, _⟩ => ⟨S50000x64, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S1x2, .f32⟩
  | .hbm, ⟨109, _⟩ => ⟨S50000x2, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S64x2, .f32⟩
  | .local _ .vmem, ⟨21, _⟩ => ⟨S1x2, .f32⟩
  | .local _ .vmem, ⟨22, _⟩ => ⟨S2000x2, .f32⟩
  | .local _ .vmem, ⟨23, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S64_S1x64 : S64.ShapeCasts S1x64
  shapeCasts_S2_S1x2 : S2.ShapeCasts S1x2
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x256_S256x128_S2000x128_1_0_0_1_n_n_wf : DotDims.WF S2000x256 S256x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x2.size a ≤ S64x2.size a
  hwx2_5 : ∀ i : grid2.Coords, EltTy.bits .f32 = 32 ∨ (Rect.block (s := S64x2) S64x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x2.size a ≤ S50000x2.size a
  hwx2_7 : ∀ i : grid2.Coords, EltTy.bits .f32 = 32 ∨ (Rect.block (s := S50000x2) S2000x2.size (cc2_transform_7 i) (hinb2_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v73) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S64x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S1x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79) S2000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S50000x128 : Shape := ⟨2, ![50000, 128]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 174
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S64x2, .f32⟩
  | 15 => ⟨S2, .f32⟩
  | 16 => ⟨S1x1600000, .i32⟩
  | 17 => ⟨S1600000, .i32⟩
  | 18 => ⟨S1x1600000, .i32⟩
  | 19 => ⟨S1600000, .i32⟩
  | 20 => ⟨S50000x128, .f32⟩
  | 21 => ⟨S_, .f32⟩
  | 22 => ⟨S1600000, .f32⟩
  | 23 => ⟨S_, .f32⟩
  | 24 => ⟨S50000, .f32⟩
  | 25 => ⟨S1600000x1, .i32⟩
  | 26 => ⟨S50000, .f32⟩
  | 27 => ⟨S_, .f32⟩
  | 28 => ⟨S50000, .f32⟩
  | 29 => ⟨S50000, .f32⟩
  | 30 => ⟨S50000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S50000x128, .f32⟩
  | 64 => ⟨S1600000x1, .i32⟩
  | 65 => ⟨S50000x128, .f32⟩
  | 66 => ⟨S_, .f32⟩
  | 67 => ⟨S50000, .f32⟩
  | 68 => ⟨S50000, .f32⟩
  | 69 => ⟨S50000x1, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x64, .f32⟩
  | 96 => ⟨S_, .f32⟩
  | 97 => ⟨S1600000, .f32⟩
  | 98 => ⟨S_, .f32⟩
  | 99 => ⟨S50000, .f32⟩
  | 100 => ⟨S1600000x1, .i32⟩
  | 101 => ⟨S50000, .f32⟩
  | 102 => ⟨S_, .f32⟩
  | 103 => ⟨S50000, .f32⟩
  | 104 => ⟨S50000, .f32⟩
  | 105 => ⟨S50000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S1600000, .f32⟩
  | 125 => ⟨S_, .i32⟩
  | 126 => ⟨S1600000, .i32⟩
  | 127 => ⟨S1600000, .i1⟩
  | _ => ⟨S50000x256, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x1, .f32⟩
  | 7 => ⟨S1600000x64, .f32⟩
  | 8 => ⟨S1600000x64, .f32⟩
  | 9 => ⟨S_, .f32⟩
  | 10 => ⟨S50000x64, .f32⟩
  | 11 => ⟨S1600000x1, .i32⟩
  | 12 => ⟨S50000x64, .f32⟩
  | 13 => ⟨S_, .f32⟩
  | 14 => ⟨S50000, .f32⟩
  | 15 => ⟨S50000, .f32⟩
  | 16 => ⟨S50000x1, .f32⟩
  | 17 => ⟨S50000x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S64, .f32⟩
  | 28 => ⟨S64, .f32⟩
  | 29 => ⟨S64, .f32⟩
  | 30 => ⟨S1x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S1x64, .f32⟩
  | 37 => ⟨S50000x64, .f32⟩
  | 38 => ⟨S50000x64, .f32⟩
  | 39 => ⟨S_, .f32⟩
  | 40 => ⟨S50000x64, .f32⟩
  | 41 => ⟨S50000x64, .f32⟩
  | 42 => ⟨S50000x2, .f32⟩
  | 43 => ⟨S1x2, .f32⟩
  | 44 => ⟨S50000x2, .f32⟩
  | 45 => ⟨S50000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call0_cst : Ref sig .tc := ⟨.hbm, 92, rfl⟩
abbrev main_call0_v0 : Ref sig .tc := ⟨.hbm, 93, rfl⟩
abbrev main_v64 : Ref sig .tc := ⟨.hbm, 94, rfl⟩
abbrev main_v65 : Ref sig .tc := ⟨.hbm, 95, rfl⟩
abbrev main_cst_10 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_c_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_17 : Ref sig .tc := ⟨.hbm, 125, rfl⟩
abbrev main_v88 : Ref sig .tc := ⟨.hbm, 126, rfl⟩
abbrev main_v89 : Ref sig .tc := ⟨.hbm, 127, rfl⟩
abbrev main_c_18 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_19 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_20 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_21 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_call1_cst : Ref sig .tc := ⟨.hbm, 167, rfl⟩
abbrev main_call1_v0 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x256_S256x128_S50000x128_1_0_0_1_n_n_wf : DotDims.WF S50000x256 S256x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x2_S50000x2_1_0_0_1_n_n_wf : DotDims.WF S50000x64 S64x2 S50000x2 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel's run with its result named.

  The program is three pipelined matrix stages separated by stretches of host operations.  Every weakly fair execution
  terminates without a fault; at the end each argument array holds what it held at launch, and the result array holds
  the last boundary's contents: the host stretches and the three stages' write-backs folded, in order, from the launch
  memory.  The later modules read that fold as a function of the arguments.
-/
import proofs.«136432_j83356725280823_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and every argument array as launched. -/
theorem run_named : θ_run defs (onTc (τ := τ) (main (F := F))) ⟨m, fun _ => 0, ρ⟩ (fun r => ∀ c : Dev nD,
      r.2.mem ((c.tc : Thread nD τ).loc main_v79) = W6 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v79 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Whole

end
-- ==== Proof.Spec.lean ====
/-
  The three matrix stages of a two-layer graph convolution network, each read at an entry.

  Stage one is a plain product: entry (p, q) of x·W is the sum over k of x(p, k)·W(k, q).  Stages two and three first
  normalise and rectify the activations — at (p, k): max(((A(p, k) − mean(k)) · rsqrt(var(k) + ε)) · γ(k) + β(k), 0), an
  inference-mode batch normalisation followed by a rectifier — and then multiply by a weight matrix; stage three adds a
  bias to every row.  Each stage's entry (p, q) depends on row p of its activations only, which is why a kernel may
  compute it one block of rows at a time.
-/
import Idealize.ShloMosaic.Lib.ValueIdx
import Idealize.ShloMosaic.PureOps.Ideal.Laws

noncomputable section

namespace Cert.Spec

open Idealize.ShloMosaic Idealize.ShloMosaic.ValueIdx

/-- The [1, K] row a kernel sees, as the length-K vector it was cast from. -/
def unrow {K : Nat} (r : FVec Ideal ⟨2, ![1, K]⟩ .f32) : FVec Ideal ⟨1, ![K]⟩ .f32 := fun k => r (ix2 (0 : Fin 1) (k 0))

/-- x·W at entry (p, q): row p of x against column q of W. -/
def lin {n K o : Nat} (x : FVec Ideal ⟨2, ![n, K]⟩ .f32) (w : FVec Ideal ⟨2, ![K, o]⟩ .f32) : FVec Ideal ⟨2, ![n, o]⟩ .f32 :=
  fun i => ∑ k : Fin K, x (ix2 (i 0) k) * w (ix2 k (i 1))

/-- The normalised, scaled, shifted and rectified activation at (p, k). -/
def act {n K : Nat} (A : FVec Ideal ⟨2, ![n, K]⟩ .f32) (g be mu var : FVec Ideal ⟨1, ![K]⟩ .f32) (p : Fin n) (k : Fin K) : EReal :=
  max (((A (ix2 p k) - mu (ix1 k)) * Ideal.rsqrt (var (ix1 k) + Ideal.ofBits .f32 0x3727C5AC#32)) * g (ix1 k) + be (ix1 k))
    (Ideal.ofBits .f32 0x00000000#32)

/-- The activations of stage two times its weights, at entry (p, q). -/
def layer {n K o : Nat} (A : FVec Ideal ⟨2, ![n, K]⟩ .f32) (g be mu var : FVec Ideal ⟨1, ![K]⟩ .f32)
    (w : FVec Ideal ⟨2, ![K, o]⟩ .f32) : FVec Ideal ⟨2, ![n, o]⟩ .f32 :=
  fun i => ∑ k : Fin K, act A g be mu var (i 0) k * w (ix2 k (i 1))

/-- The same with a bias added to every row: stage three. -/
def layerB {n K o : Nat} (A : FVec Ideal ⟨2, ![n, K]⟩ .f32) (g be mu var : FVec Ideal ⟨1, ![K]⟩ .f32)
    (w : FVec Ideal ⟨2, ![K, o]⟩ .f32) (b : FVec Ideal ⟨1, ![o]⟩ .f32) : FVec Ideal ⟨2, ![n, o]⟩ .f32 :=
  fun i => (∑ k : Fin K, act A g be mu var (i 0) k * w (ix2 k (i 1))) + b (ix1 (i 1))

end Cert.Spec

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«136432_j83356725280823_1_alg».proof.Proof.LibDotEntry
import proofs.«136432_j83356725280823_1_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.Region0.lean ====
/-
  Stage one of the kernel: x·W₁ computed 2000 rows at a time.

  The 50000 rows are cut into 25 blocks; grid point t multiplies block t of x (rows 2000·t … 2000·t + 1999) by the
  whole of W₁ and writes the product back as block t of the result.  Entry (r, q) of that block is the sum over k of
  x(2000·t + r, k)·W₁(k, q): entry (2000·t + r, q) of x·W₁.  The 25 blocks tile the result, so after the last point the
  result array is x·W₁, whatever the arrays x and W₁ hold when the stage is entered.
-/
import proofs.«136432_j83356725280823_1_alg».proof.Proof.Gen.KernelIdeal.Frame
import proofs.«136432_j83356725280823_1_alg».proof.Proof.Spec
import proofs.«136432_j83356725280823_1_alg».proof.Proof.LibDenseLayer
import Idealize.ShloMosaic.Lib.ValueIdx
import Idealize.ShloMosaic.Lib.Pipeline.Value

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The zero offset of a whole-block access, as a function. -/
theorem hz : (![0, 0] : Fin 2 → Nat) = fun _ => 0 := funext fun a => by fin_cases a <;> rfl

/-- The block product contracts the left factor's columns against the right factor's rows. -/
theorem isMat0 : Cert.Lib.DenseLayer.IsMatProduct dot_S2000x256_S256x128_S2000x128_1_0_0_1_n_n := ⟨rfl, rfl, rfl, rfl, rfl, rfl⟩

/-- Entry (r, q) of the body's product of two blocks is entry i of A·W, when row r of the left block is row i₀ of A
    and column q of the right block is column i₁ of W. -/
theorem pay0_entry (A : FVec Ideal S50000x256 .f32) (W : FVec Ideal S256x128 .f32) (x0 : Vec Ideal S2000x256 .f32)
    (x1 : Vec Ideal S256x128 .f32) (r : Fin 2000) (q : Fin 128) (i : S50000x128.Idx)
    (h0 : ∀ k : Fin 256, x0 (ix2 r k) = A (ix2 (i 0) k)) (h1 : ∀ k : Fin 256, x1 (ix2 k q) = W (ix2 k (i 1))) :
    k0_pay1 x0 x1 (ix2 r q) = lin A W i := by
  unfold k0_pay1
  refine (Cert.Lib.DenseLayer.matmul_entry isMat0 _ _ r q).trans ?_
  unfold lin
  refine Finset.sum_congr rfl fun k _ => ?_
  show x0 (ix2 r k) * x1 (ix2 k q) = _
  rw [h0, h1]

/-- Where each window's block sits at point t: the row blocks of x and of the result move with t, W₁ stays whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x·W₁. -/
theorem flushed0 (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := idx_facts0 t
  funext j
  refine Eq.trans (congrArg (k0_pay1 (iblk0 V c 0 t) (iblk0 V c 1 t)) (eq_ix2 j))
    (pay0_entry (V c main_arg0) (V c main_arg2) (iblk0 V c 0 t) (iblk0 V c 1 t) (j 0) (j 1)
      (((cfg0.win 2).blk t).view.emb j) (fun k => ?_) (fun k => ?_))
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v28).slice (win0_2.rect t)).set ↔ _
  rw [View.set_slice_whole, Rect.mem_set_unit]
  exact Iff.rfl

/-- Row p of the result lies in the block of point p / 2000. -/
theorem cover0 (i : S50000x128.Idx) : ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 25 := N_0
  let t : Fin cfg0.N := ⟨(i 0).val / 2000, by rw [hN]; omega⟩
  have ht : t.val = (i 0).val / 2000 := rfl
  obtain ⟨e0, e1, e2, e3, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After its last point stage one's result array is x·W₁ of the arrays it was entered with. -/
theorem final0 (c : Dev nD) : (dat0 V c).arrAt 2 cfg0.N = lin (V c main_arg0) (V c main_arg2) :=
  (dat0 V c).arrAt_eq_of_cover 2 (lin (V c main_arg0) (V c main_arg2)) (fun t _ => flushed0 V c t) cover0

end Cert.KernelIdeal.Whole

end
-- ==== Proof.Region1.lean ====
/-
  Stage two of the kernel, computed 2000 rows at a time.

  Grid point t takes block t of the activations (rows 2000·t … 2000·t + 1999), the four [1, 128] rows of the batch
  normalisation (scale, shift, mean, variance), the whole 128×64 weight matrix; it normalises, scales, shifts and rectifies
  the block, multiplies by the weights and writes the result back as block t.  Entry (r, q) of that block uses row r
  of the activations' block only, which is row 2000·t + r of the activations: so it is entry (2000·t + r, q) of the
  stage applied to the whole array.  The 25 blocks tile the result.
-/
import proofs.«136432_j83356725280823_1_alg».proof.Proof.Gen.KernelIdeal.Frame
import proofs.«136432_j83356725280823_1_alg».proof.Proof.Spec
import proofs.«136432_j83356725280823_1_alg».proof.Proof.LibDenseLayer
import Idealize.ShloMosaic.Lib.ValueIdx
import Idealize.ShloMosaic.Lib.ValueLayout
import Idealize.ShloMosaic.Lib.Pipeline.Value

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The zero offset of a whole-block access, as a function. -/
theorem hz1 : (![0, 0] : Fin 2 → Nat) = fun _ => 0 := funext fun a => by fin_cases a <;> rfl

/-- The block product contracts the left factor's columns against the right factor's rows. -/
theorem isMat1 : Cert.Lib.DenseLayer.IsMatProduct dot_S2000x128_S128x64_S2000x64_1_0_0_1_n_n := ⟨rfl, rfl, rfl, rfl, rfl, rfl⟩

/-- Entry (r, q) of what the body computes from its blocks is entry i of the stage applied to whole arrays, when row r
    of the activations' block is row i₀ of the array, the four rows are the arrays' rows, and column q of the weights'
    block is column i₁ of the weights. -/
theorem pay1_entry (A : FVec Ideal S50000x128 .f32) (G BE MU VA : FVec Ideal S1x128 .f32) (W : FVec Ideal S128x64 .f32)
    (x0 : Vec Ideal S2000x128 .f32) (mu va g be : Vec Ideal S1x128 .f32) (w : Vec Ideal S128x64 .f32)
    (r : Fin 2000) (q : Fin 64) (i : S50000x64.Idx)
    (h0 : ∀ k : Fin 128, x0 (ix2 r k) = A (ix2 (i 0) k))
    (hmu : ∀ k : Fin 128, mu (ix2 (0 : Fin 1) k) = MU (ix2 (0 : Fin 1) k))
    (hva : ∀ k : Fin 128, va (ix2 (0 : Fin 1) k) = VA (ix2 (0 : Fin 1) k))
    (hg : ∀ k : Fin 128, g (ix2 (0 : Fin 1) k) = G (ix2 (0 : Fin 1) k))
    (hbe : ∀ k : Fin 128, be (ix2 (0 : Fin 1) k) = BE (ix2 (0 : Fin 1) k))
    (hw : ∀ k : Fin 128, w (ix2 k q) = W (ix2 k (i 1))) :
    k1_pay1 x0 mu va g be w (ix2 r q) = layer A (unrow G) (unrow BE) (unrow MU) (unrow VA) W i := by
  unfold k1_pay1
  simp only [shapeCast_self]

  refine (Cert.Lib.DenseLayer.matmul_entry isMat1 _ _ r q).trans ?_
  unfold layer
  refine Finset.sum_congr rfl fun k _ => ?_
  rw [truncf_apply, truncf_apply, maximumf_apply, addf_apply, mulf_apply, mulf_apply, subf_apply,
    broadcastTo_1b_ab_apply, broadcastTo_1b_ab_apply, broadcastTo_1b_ab_apply, broadcastTo_1b_ab_apply, h0, hmu, hg, hbe, hw]
  show max (((A (ix2 (i 0) k) - MU (ix2 (0 : Fin 1) k)) * Ideal.rsqrt (va (ix2 (0 : Fin 1) k) + Ideal.ofBits .f32 0x3727C5AC#32)) * G (ix2 (0 : Fin 1) k) + BE (ix2 (0 : Fin 1) k)) (Ideal.ofBits .f32 0x00000000#32) * W (ix2 k (i 1)) = _
  rw [hva]
  rfl

/-- Where each window's block sits at point t: the row blocks of the activations and of the result move with t,
    every other operand stays whole. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

set_option maxHeartbeats 1600000 in
/-- What point t writes back is block t of the stage applied to the arrays it was entered with. -/
theorem flushed1 (c : Dev nD) (t : Fin cfg1.N) :
    (dat1 V c).flushed 6 t = ((cfg1.win 6).blk t).view.read (Elt Ideal) (layer (V c main_v48) (unrow (V c main_v49)) (unrow (V c main_v50)) (unrow (V c main_v51)) (unrow (V c main_v52)) (V c main_arg8)) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S1x128) hz1, View.ld_unit_zero (S := S128x64) hz1]
  obtain ⟨e0, e1, e2, e3, e4, e5, e6, e7, e8, e9, e10, e11, e12, e13⟩ := idx_facts1 t
  funext j
  refine Eq.trans (congrArg (k1_pay1 (iblk1 V c 0 t) (iblk1 V c 3 t) (iblk1 V c 4 t) (iblk1 V c 1 t) (iblk1 V c 2 t) (iblk1 V c 5 t)) (eq_ix2 j))
    (pay1_entry (V c main_v48) (V c main_v49) (V c main_v50) (V c main_v51) (V c main_v52) (V c main_arg8)
      (iblk1 V c 0 t) (iblk1 V c 3 t) (iblk1 V c 4 t) (iblk1 V c 1 t) (iblk1 V c 2 t) (iblk1 V c 5 t) (j 0) (j 1)
      (((cfg1.win 6).blk t).view.emb j) (fun k => ?_) (fun k => ?_) (fun k => ?_) (fun k => ?_) (fun k => ?_) (fun k => ?_))
  · show V c main_v48 (((cfg1.win 0).blk t).view.emb (ix2 (j 0) k)) = V c main_v48 (ix2 ((((cfg1.win 6).blk t).view.emb j) 0) k)
    refine congrArg (V c main_v48) (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * k.val = k.val; omega
  · show V c main_v51 (((cfg1.win 3).blk t).view.emb (ix2 (0 : Fin 1) k)) = V c main_v51 (ix2 (0 : Fin 1) k)
    refine congrArg (V c main_v51) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_v52 (((cfg1.win 4).blk t).view.emb (ix2 (0 : Fin 1) k)) = V c main_v52 (ix2 (0 : Fin 1) k)
    refine congrArg (V c main_v52) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  · show V c main_v49 (((cfg1.win 1).blk t).view.emb (ix2 (0 : Fin 1) k)) = V c main_v49 (ix2 (0 : Fin 1) k)
    refine congrArg (V c main_v49) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_v50 (((cfg1.win 2).blk t).view.emb (ix2 (0 : Fin 1) k)) = V c main_v50 (ix2 (0 : Fin 1) k)
    refine congrArg (V c main_v50) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_arg8 (((cfg1.win 5).blk t).view.emb (ix2 k (j 1))) = V c main_arg8 (ix2 k ((((cfg1.win 6).blk t).view.emb j) 1))
    refine congrArg (V c main_arg8) (funext fun a => Fin.ext ?_)
    match a with
    | ⟨0, _⟩ => show win1_5.index t (0 : Fin 2) * 128 + 1 * k.val = k.val; omega
    | ⟨1, _⟩ => show win1_5.index t (1 : Fin 2) * 64 + 1 * (j 1).val = win1_6.index t (1 : Fin 2) * 64 + 1 * (j 1).val; omega

/-- An index of the result is in point t's block iff each coordinate is in the block's range on its axis. -/
theorem mem_blk1 (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v53).slice (win1_6.rect t)).set ↔ _
  rw [View.set_slice_whole, Rect.mem_set_unit]
  exact Iff.rfl

/-- Row p of the result lies in the block of point p / 2000. -/
theorem cover1 (i : S50000x64.Idx) : ∃ t : Fin cfg1.N, (cfg1.win 6).flush t = true ∧ i ∈ ((cfg1.win 6).blk t).view.set := by
  have hi0 : (i 0).val < 50000 := idx2_lt0 i
  have hi1 : (i 1).val < 64 := idx2_lt1 i
  have hN : cfg1.N = 25 := N_1
  let t : Fin cfg1.N := ⟨(i 0).val / 2000, by rw [hN]; omega⟩
  have ht : t.val = (i 0).val / 2000 := rfl
  obtain ⟨e0, e1, e2, e3, e4, e5, e6, e7, e8, e9, e10, e11, e12, e13⟩ := idx_facts1 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- After its last point the stage's result array is the stage applied to the arrays it was entered with. -/
theorem final1 (c : Dev nD) : (dat1 V c).arrAt 6 cfg1.N = layer (V c main_v48) (unrow (V c main_v49)) (unrow (V c main_v50)) (unrow (V c main_v51)) (unrow (V c main_v52)) (V c main_arg8) :=
  (dat1 V c).arrAt_eq_of_cover 6 (layer (V c main_v48) (unrow (V c main_v49)) (unrow (V c main_v50)) (unrow (V c main_v51)) (unrow (V c main_v52)) (V c main_arg8)) (fun t _ => flushed1 V c t) cover1

end Cert.KernelIdeal.Whole

end
-- ==== Proof.Region2.lean ====
/-
  Stage three of the kernel, computed 2000 rows at a time.

  Grid point t takes block t of the activations (rows 2000·t … 2000·t + 1999), the four [1, 64] rows of the batch
  normalisation (scale, shift, mean, variance), the whole 64×2 weight matrix and the [1, 2] bias row; it normalises, scales, shifts and rectifies
  the block, multiplies by the weights, adds the bias to every row and writes the result back as block t.  Entry (r, q) of that block uses row r
  of the activations' block only, which is row 2000·t + r of the activations: so it is entry (2000·t + r, q) of the
  stage applied to the whole array.  The 25 blocks tile the result.
-/
import proofs.«136432_j83356725280823_1_alg».proof.Proof.Gen.KernelIdeal.Frame
import proofs.«136432_j83356725280823_1_alg».proof.Proof.Spec
import proofs.«136432_j83356725280823_1_alg».proof.Proof.LibDenseLayer
import Idealize.ShloMosaic.Lib.ValueIdx
import Idealize.ShloMosaic.Lib.ValueLayout
import Idealize.ShloMosaic.Lib.Pipeline.Value

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-- The zero offset of a whole-block access, as a function. -/
theorem hz2 : (![0, 0] : Fin 2 → Nat) = fun _ => 0 := funext fun a => by fin_cases a <;> rfl

/-- The block product contracts the left factor's columns against the right factor's rows. -/
theorem isMat2 : Cert.Lib.DenseLayer.IsMatProduct dot_S2000x64_S64x2_S2000x2_1_0_0_1_n_n := ⟨rfl, rfl, rfl, rfl, rfl, rfl⟩

/-- Entry (r, q) of what the body computes from its blocks is entry i of the stage applied to whole arrays, when row r
    of the activations' block is row i₀ of the array, the four rows are the arrays' rows, and column q of the weights'
    block is column i₁ of the weights (and of the bias). -/
theorem pay2_entry (A : FVec Ideal S50000x64 .f32) (G BE MU VA : FVec Ideal S1x64 .f32) (W : FVec Ideal S64x2 .f32) (B : FVec Ideal S1x2 .f32)
    (x0 : Vec Ideal S2000x64 .f32) (mu va g be : Vec Ideal S1x64 .f32) (w : Vec Ideal S64x2 .f32) (b : Vec Ideal S1x2 .f32)
    (r : Fin 2000) (q : Fin 2) (i : S50000x2.Idx)
    (h0 : ∀ k : Fin 64, x0 (ix2 r k) = A (ix2 (i 0) k))
    (hmu : ∀ k : Fin 64, mu (ix2 (0 : Fin 1) k) = MU (ix2 (0 : Fin 1) k))
    (hva : ∀ k : Fin 64, va (ix2 (0 : Fin 1) k) = VA (ix2 (0 : Fin 1) k))
    (hg : ∀ k : Fin 64, g (ix2 (0 : Fin 1) k) = G (ix2 (0 : Fin 1) k))
    (hbe : ∀ k : Fin 64, be (ix2 (0 : Fin 1) k) = BE (ix2 (0 : Fin 1) k))
    (hw : ∀ k : Fin 64, w (ix2 k q) = W (ix2 k (i 1)))
    (hb : b (ix2 (0 : Fin 1) q) = B (ix2 (0 : Fin 1) (i 1))) :
    k2_pay1 x0 mu va g be w b (ix2 r q) = layerB A (unrow G) (unrow BE) (unrow MU) (unrow VA) W (unrow B) i := by
  unfold k2_pay1
  simp only [shapeCast_self]
  rw [addf_apply, broadcastTo_1b_ab_apply]
  refine congrArg₂ (· + ·) ?_ hb
  refine (Cert.Lib.DenseLayer.matmul_entry isMat2 _ _ r q).trans ?_

  refine Finset.sum_congr rfl fun k _ => ?_
  rw [truncf_apply, truncf_apply, maximumf_apply, addf_apply, mulf_apply, mulf_apply, subf_apply,
    broadcastTo_1b_ab_apply, broadcastTo_1b_ab_apply, broadcastTo_1b_ab_apply, broadcastTo_1b_ab_apply, h0, hmu, hg, hbe, hw]
  show max (((A (ix2 (i 0) k) - MU (ix2 (0 : Fin 1) k)) * Ideal.rsqrt (va (ix2 (0 : Fin 1) k) + Ideal.ofBits .f32 0x3727C5AC#32)) * G (ix2 (0 : Fin 1) k) + BE (ix2 (0 : Fin 1) k)) (Ideal.ofBits .f32 0x00000000#32) * W (ix2 k (i 1)) = _
  rw [hva]
  rfl

/-- Where each window's block sits at point t: the row blocks of the activations and of the result move with t,
    every other operand stays whole. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

set_option maxHeartbeats 1600000 in
/-- What point t writes back is block t of the stage applied to the arrays it was entered with. -/
theorem flushed2 (c : Dev nD) (t : Fin cfg2.N) :
    (dat2 V c).flushed 7 t = ((cfg2.win 7).blk t).view.read (Elt Ideal) (layerB (V c main_v73) (unrow (V c main_v74)) (unrow (V c main_v75)) (unrow (V c main_v76)) (unrow (V c main_v77)) (V c main_arg14) (unrow (V c main_v78))) := by
  show (cfg2.win 7).cut (grid2.coords t) ((dat2 V c).after 7 t) = _
  rw [after2_7]
  unfold out2_7
  rw [View.canon_unit_zero hz2]
  simp only [View.ld_unit_zero (S := S2000x64) hz2, View.ld_unit_zero (S := S1x64) hz2, View.ld_unit_zero (S := S64x2) hz2, View.ld_unit_zero (S := S1x2) hz2]
  obtain ⟨e0, e1, e2, e3, e4, e5, e6, e7, e8, e9, e10, e11, e12, e13, e14, e15⟩ := idx_facts2 t
  funext j
  refine Eq.trans (congrArg (k2_pay1 (iblk2 V c 0 t) (iblk2 V c 3 t) (iblk2 V c 4 t) (iblk2 V c 1 t) (iblk2 V c 2 t) (iblk2 V c 5 t) (iblk2 V c 6 t)) (eq_ix2 j))
    (pay2_entry (V c main_v73) (V c main_v74) (V c main_v75) (V c main_v76) (V c main_v77) (V c main_arg14) (V c main_v78)
      (iblk2 V c 0 t) (iblk2 V c 3 t) (iblk2 V c 4 t) (iblk2 V c 1 t) (iblk2 V c 2 t) (iblk2 V c 5 t) (iblk2 V c 6 t) (j 0) (j 1)
      (((cfg2.win 7).blk t).view.emb j) (fun k => ?_) (fun k => ?_) (fun k => ?_) (fun k => ?_) (fun k => ?_) (fun k => ?_) ?_)
  · show V c main_v73 (((cfg2.win 0).blk t).view.emb (ix2 (j 0) k)) = V c main_v73 (ix2 ((((cfg2.win 7).blk t).view.emb j) 0) k)
    refine congrArg (V c main_v73) (funext fun a => Fin.ext ?_)
    match a with
    | ⟨0, _⟩ => show win2_0.index t (0 : Fin 2) * 2000 + 1 * (j 0).val = win2_7.index t (0 : Fin 2) * 2000 + 1 * (j 0).val; omega
    | ⟨1, _⟩ => show win2_0.index t (1 : Fin 2) * 64 + 1 * k.val = k.val; omega
  · show V c main_v76 (((cfg2.win 3).blk t).view.emb (ix2 (0 : Fin 1) k)) = V c main_v76 (ix2 (0 : Fin 1) k)
    refine congrArg (V c main_v76) (funext fun a => Fin.ext ?_)
    match a with
    | ⟨0, _⟩ => show win2_3.index t (0 : Fin 2) * 1 + 1 * 0 = 0; omega
    | ⟨1, _⟩ => show win2_3.index t (1 : Fin 2) * 64 + 1 * k.val = k.val; omega
  · show V c main_v77 (((cfg2.win 4).blk t).view.emb (ix2 (0 : Fin 1) k)) = V c main_v77 (ix2 (0 : Fin 1) k)
    refine congrArg (V c main_v77) (funext fun a => Fin.ext ?_)
    match a with
    | ⟨0, _⟩ => show win2_4.index t (0 : Fin 2) * 1 + 1 * 0 = 0; omega
    | ⟨1, _⟩ => show win2_4.index t (1 : Fin 2) * 64 + 1 * k.val = k.val; omega
  · show V c main_v74 (((cfg2.win 1).blk t).view.emb (ix2 (0 : Fin 1) k)) = V c main_v74 (ix2 (0 : Fin 1) k)
    refine congrArg (V c main_v74) (funext fun a => Fin.ext ?_)
    match a with
    | ⟨0, _⟩ => show win2_1.index t (0 : Fin 2) * 1 + 1 * 0 = 0; omega
    | ⟨1, _⟩ => show win2_1.index t (1 : Fin 2) * 64 + 1 * k.val = k.val; omega
  · show V c main_v75 (((cfg2.win 2).blk t).view.emb (ix2 (0 : Fin 1) k)) = V c main_v75 (ix2 (0 : Fin 1) k)
    refine congrArg (V c main_v75) (funext fun a => Fin.ext ?_)
    match a with
    | ⟨0, _⟩ => show win2_2.index t (0 : Fin 2) * 1 + 1 * 0 = 0; omega
    | ⟨1, _⟩ => show win2_2.index t (1 : Fin 2) * 64 + 1 * k.val = k.val; omega
  · show V c main_arg14 (((cfg2.win 5).blk t).view.emb (ix2 k (j 1))) = V c main_arg14 (ix2 k ((((cfg2.win 7).blk t).view.emb j) 1))
    refine congrArg (V c main_arg14) (funext fun a => Fin.ext ?_)
    match a with
    | ⟨0, _⟩ => show win2_5.index t (0 : Fin 2) * 64 + 1 * k.val = k.val; omega
    | ⟨1, _⟩ => show win2_5.index t (1 : Fin 2) * 2 + 1 * (j 1).val = win2_7.index t (1 : Fin 2) * 2 + 1 * (j 1).val; omega
  · show V c main_v78 (((cfg2.win 6).blk t).view.emb (ix2 (0 : Fin 1) (j 1))) = V c main_v78 (ix2 (0 : Fin 1) ((((cfg2.win 7).blk t).view.emb j) 1))
    refine congrArg (V c main_v78) (funext fun a => Fin.ext ?_)
    match a with
    | ⟨0, _⟩ => show win2_6.index t (0 : Fin 2) * 1 + 1 * 0 = 0; omega
    | ⟨1, _⟩ => show win2_6.index t (1 : Fin 2) * 2 + 1 * (j 1).val = win2_7.index t (1 : Fin 2) * 2 + 1 * (j 1).val; omega

/-- An index of the result is in point t's block iff each coordinate is in the block's range on its axis. -/
theorem mem_blk2 (t : Fin cfg2.N) (i : S50000x2.Idx) :
    i ∈ ((cfg2.win 7).blk t).view.set ↔ ∀ a : Fin 2, win2_7.index t a * S2000x2.size a ≤ (i a).val ∧ (i a).val < win2_7.index t a * S2000x2.size a + S2000x2.size a := by
  show i ∈ ((View.whole main_v79).slice (win2_7.rect t)).set ↔ _
  rw [View.set_slice_whole, Rect.mem_set_unit]
  exact Iff.rfl

/-- Row p of the result lies in the block of point p / 2000. -/
theorem cover2 (i : S50000x2.Idx) : ∃ t : Fin cfg2.N, (cfg2.win 7).flush t = true ∧ i ∈ ((cfg2.win 7).blk t).view.set := by
  have hi0 : (i 0).val < 50000 := idx2_lt0 i
  have hi1 : (i 1).val < 2 := idx2_lt1 i
  have hN : cfg2.N = 25 := N_2
  let t : Fin cfg2.N := ⟨(i 0).val / 2000, by rw [hN]; omega⟩
  have ht : t.val = (i 0).val / 2000 := rfl
  obtain ⟨e0, e1, e2, e3, e4, e5, e6, e7, e8, e9, e10, e11, e12, e13, e14, e15⟩ := idx_facts2 t
  refine ⟨t, flush2_7 t, ?_⟩
  rw [mem_blk2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 2 ≤ (i 1).val ∧ (i 1).val < win2_7.index t (1 : Fin 2) * 2 + 2; omega

/-- After its last point the stage's result array is the stage applied to the arrays it was entered with. -/
theorem final2 (c : Dev nD) : (dat2 V c).arrAt 7 cfg2.N = layerB (V c main_v73) (unrow (V c main_v74)) (unrow (V c main_v75)) (unrow (V c main_v76)) (unrow (V c main_v77)) (V c main_arg14) (unrow (V c main_v78)) :=
  (dat2 V c).arrAt_eq_of_cover 7 (layerB (V c main_v73) (unrow (V c main_v74)) (unrow (V c main_v75)) (unrow (V c main_v76)) (unrow (V c main_v77)) (V c main_arg14) (unrow (V c main_v78))) (fun t _ => flushed2 V c t) cover2

end Cert.KernelIdeal.Whole

end
-- ==== Proof.RefLayers.lean ====
/-
  The reference's three matrix stages, each read at an entry.

  The reference computes x·W₁ as one product of whole matrices; it normalises, scales, shifts and rectifies the whole
  array of aggregated activations and multiplies it by W₂ as one product; and it does the same once more with the last
  weights, adding the bias to every row.  Reading each stage one operation at a time, entry (p, q) is the sum over k of
  the stage's activation at (p, k) times the weight at (k, q) (plus the bias at q): the three functions of module Spec.
-/
import proofs.«136432_j83356725280823_1_alg».proof.Proof.Gen.ReferenceIdeal.Read
import proofs.«136432_j83356725280823_1_alg».proof.Proof.Spec

noncomputable section

namespace Cert.ReferenceIdeal.Stages

open Idealize.ShloMosaic Idealize.ShloMosaic.TcCoe Idealize.ShloMosaic.ValueIdx Idealize.SL.Sem
open Cert.ReferenceIdeal Cert.ReferenceIdeal.Gen Cert.ReferenceIdeal.Read Cert.Spec

/-- Stage one: the product of the node features by the first weights. -/
theorem stage1 (x0 : (⟨S50000x256, .f32⟩ : BufTy).Contents (Elt Ideal)) (x2 : (⟨S256x128, .f32⟩ : BufTy).Contents (Elt Ideal)) :
    val_main_v4 (F := Ideal) x0 x2 = lin x0 x2 := by
  funext i
  obtain ⟨p, q, rfl⟩ : ∃ (p : Fin 50000) (q : Fin 128), i = ix2 p q := ⟨i 0, i 1, eq_ix2 i⟩
  rw [val_main_v4_apply]
  show _ = ∑ k : Fin 256, x0 (ix2 p k) * x2 (ix2 k q)
  refine Finset.sum_congr rfl fun k _ => ?_
  have hl : lidx_main_v4 (ix2 p q) k = ix2 p k := funext fun a => by match a with | ⟨0, _⟩ => rfl | ⟨1, _⟩ => rfl
  have hr : ridx_main_v4 (ix2 p q) k = ix2 k q := funext fun a => by match a with | ⟨0, _⟩ => rfl | ⟨1, _⟩ => rfl
  rw [hl, hr]

/-- Stage two: the first aggregation, normalised and rectified, times the second weights. -/
theorem stage2 (x0 : (⟨S50000x256, .f32⟩ : BufTy).Contents (Elt Ideal)) (x1 : (⟨S2x1600000, .i32⟩ : BufTy).Contents (Elt Ideal)) (x2 : (⟨S256x128, .f32⟩ : BufTy).Contents (Elt Ideal))
    (x3 x4 x5 x6 x7 : (⟨S128, .f32⟩ : BufTy).Contents (Elt Ideal)) (x8 : (⟨S128x64, .f32⟩ : BufTy).Contents (Elt Ideal)) :
    val_main_v65 (F := Ideal) x0 x1 x2 x3 x4 x5 x6 x7 x8 = layer (val_main_v48 (F := Ideal) x0 x1 x2 x3) x4 x5 x6 x7 x8 := by
  funext i
  obtain ⟨p, q, rfl⟩ : ∃ (p : Fin 50000) (q : Fin 64), i = ix2 p q := ⟨i 0, i 1, eq_ix2 i⟩
  rw [val_main_v65_apply]
  show _ = ∑ k : Fin 128, act (val_main_v48 (F := Ideal) x0 x1 x2 x3) x4 x5 x6 x7 p k * x8 (ix2 k q)
  refine Finset.sum_congr rfl fun k _ => ?_
  have hl : lidx_main_v65 (ix2 p q) k = ix2 p k := funext fun a => by match a with | ⟨0, _⟩ => rfl | ⟨1, _⟩ => rfl
  have hr : ridx_main_v65 (ix2 p q) k = ix2 k q := funext fun a => by match a with | ⟨0, _⟩ => rfl | ⟨1, _⟩ => rfl
  rw [hl, hr]
  refine congrArg (· * x8 (ix2 k q)) ?_
  rw [val_main_v64_apply, val_main_v63_apply, val_main_v60_apply, val_main_v57_apply, val_main_v51_apply,
    val_main_v50_apply, val_main_v49_apply, val_main_v56_apply, val_main_v55_apply, val_main_v54_apply, val_main_v53_apply,
    val_main_v52_apply, val_main_cst_9_apply, val_main_v59_apply, val_main_v58_apply, val_main_v62_apply, val_main_v61_apply,
    val_main_call0_v0_apply, val_main_call0_cst_apply]
  have e1 : idx_main_v49 (idx_main_v50 (ix2 p k)) = ix1 k := funext fun a => by match a with | ⟨0, _⟩ => rfl
  have e2 : idx_main_v55 (idx_main_v56 (ix2 p k)) = ix1 k := funext fun a => by match a with | ⟨0, _⟩ => rfl
  have e3 : idx_main_v58 (idx_main_v59 (ix2 p k)) = ix1 k := funext fun a => by match a with | ⟨0, _⟩ => rfl
  have e4 : idx_main_v61 (idx_main_v62 (ix2 p k)) = ix1 k := funext fun a => by match a with | ⟨0, _⟩ => rfl
  rw [e1, e2, e3, e4]
  rfl

/-- Stage three: the second aggregation, normalised and rectified, times the last weights, plus the bias. -/
theorem stage3 (x0 : (⟨S50000x256, .f32⟩ : BufTy).Contents (Elt Ideal)) (x1 : (⟨S2x1600000, .i32⟩ : BufTy).Contents (Elt Ideal)) (x2 : (⟨S256x128, .f32⟩ : BufTy).Contents (Elt Ideal))
    (x3 x4 x5 x6 x7 : (⟨S128, .f32⟩ : BufTy).Contents (Elt Ideal)) (x8 : (⟨S128x64, .f32⟩ : BufTy).Contents (Elt Ideal)) (x9 x10 x11 x12 x13 : (⟨S64, .f32⟩ : BufTy).Contents (Elt Ideal)) (x14 : (⟨S64x2, .f32⟩ : BufTy).Contents (Elt Ideal)) (x15 : (⟨S2, .f32⟩ : BufTy).Contents (Elt Ideal)) :
    val_main_v129 (F := Ideal) x0 x1 x2 x3 x4 x5 x6 x7 x8 x9 x10 x11 x12 x13 x14 x15
      = layerB (val_main_v109 (F := Ideal) x0 x1 x2 x3 x4 x5 x6 x7 x8 x9) x10 x11 x12 x13 x14 x15 := by
  funext i
  obtain ⟨p, q, rfl⟩ : ∃ (p : Fin 50000) (q : Fin 2), i = ix2 p q := ⟨i 0, i 1, eq_ix2 i⟩
  rw [val_main_v129_apply, val_main_v126_apply, val_main_v128_apply, val_main_v127_apply]
  have eb : idx_main_v127 (idx_main_v128 (ix2 p q)) = ix1 q := funext fun a => by match a with | ⟨0, _⟩ => rfl
  rw [eb]
  show _ = (∑ k : Fin 64, act (val_main_v109 (F := Ideal) x0 x1 x2 x3 x4 x5 x6 x7 x8 x9) x10 x11 x12 x13 p k * x14 (ix2 k q)) + x15 (ix1 q)
  refine congrArg (· + x15 (ix1 q)) ?_
  refine Finset.sum_congr rfl fun k _ => ?_
  have hl : lidx_main_v126 (ix2 p q) k = ix2 p k := funext fun a => by match a with | ⟨0, _⟩ => rfl | ⟨1, _⟩ => rfl
  have hr : ridx_main_v126 (ix2 p q) k = ix2 k q := funext fun a => by match a with | ⟨0, _⟩ => rfl | ⟨1, _⟩ => rfl
  rw [hl, hr]
  refine congrArg (· * x14 (ix2 k q)) ?_
  rw [val_main_v125_apply, val_main_v124_apply, val_main_v121_apply, val_main_v118_apply, val_main_v112_apply,
    val_main_v111_apply, val_main_v110_apply, val_main_v117_apply, val_main_v116_apply, val_main_v115_apply, val_main_v114_apply,
    val_main_v113_apply, val_main_cst_21_apply, val_main_v120_apply, val_main_v119_apply, val_main_v123_apply, val_main_v122_apply,
    val_main_call1_v0_apply, val_main_call1_cst_apply]
  have e1 : idx_main_v110 (idx_main_v111 (ix2 p k)) = ix1 k := funext fun a => by match a with | ⟨0, _⟩ => rfl
  have e2 : idx_main_v116 (idx_main_v117 (ix2 p k)) = ix1 k := funext fun a => by match a with | ⟨0, _⟩ => rfl
  have e3 : idx_main_v119 (idx_main_v120 (ix2 p k)) = ix1 k := funext fun a => by match a with | ⟨0, _⟩ => rfl
  have e4 : idx_main_v122 (idx_main_v123 (ix2 p k)) = ix1 k := funext fun a => by match a with | ⟨0, _⟩ => rfl
  rw [e1, e2, e3, e4]
  rfl

end Cert.ReferenceIdeal.Stages

end
-- ==== Proof.Glue.lean ====
/-
  The idealized kernel's result as a function of its arguments.

  Between the three matrix stages the program aggregates over the graph on the host: it reads the edge list, counts
  every node's in-degree (plus one for the self-loop), forms the symmetric normalisation of every edge, gathers the
  source rows of the current features, scales them, scatters them onto the target rows, adds the self-loop term and
  the bias.  Those stretches are, operation for operation, what the reference does between its own matrix products;
  so, walking the program's boundaries in order — launch, stage one, first aggregation, stage two, second aggregation,
  stage three — and replacing each stage's result by the matching function of module Spec, the result array is the
  reference's value of the same arguments.
-/
import proofs.«136432_j83356725280823_1_alg».proof.Proof.Gen.KernelIdeal.Frame
import proofs.«136432_j83356725280823_1_alg».proof.Proof.Gen.ReferenceIdeal.Read
import proofs.«136432_j83356725280823_1_alg».proof.Proof.Spec
import proofs.«136432_j83356725280823_1_alg».proof.Proof.Region0
import proofs.«136432_j83356725280823_1_alg».proof.Proof.Region1
import proofs.«136432_j83356725280823_1_alg».proof.Proof.Region2
import proofs.«136432_j83356725280823_1_alg».proof.Proof.RefLayers
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.ShloMosaic.StableHlo
open Idealize.SL Idealize.SL.Sem
open Cert.KernelIdeal Cert.KernelIdeal.Gen Cert.Spec

variable (m : (ℓ : Loc nD τ sig) → Buf (Elt Ideal) ℓ) (ρ : Dev nD → PrngReg)

/-- No operation of a host stretch writes the buffer: every operation's result buffer is another one. -/
local macro "unwritten" : tactic => `(tactic| (
  refine List.forall_iff_forall_mem.mp ?_
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A length-K vector cast to a [1, K] row and read back as a vector is the vector. -/
theorem unrow_reshape {K : Nat} (x : FVec Ideal ⟨1, ![K]⟩ .f32) (h : (⟨1, ![K]⟩ : Shape).ShapeCasts ⟨2, ![1, K]⟩) :
    unrow (shapeCast ⟨2, ![1, K]⟩ x h) = x := by
  funext k
  exact (shapeCast_a_1a_apply x h 0 (k 0)).trans (congrArg x (eq_ix1 k).symm)

/-! ## A buffer no stretch writes and no stage owns keeps its launch contents -/

theorem keep1 (c : Dev nD) (b : Ref sig .tc)
    (h0 : ∀ op ∈ (hostOps0 : List (HloOp τ sig (Elt Ideal))), (Proc.devRef .tc b : DevRef τ sig) ∉ op.writes) :
    W1 m ρ c (Proc.devRef .tc b) = m ((c : Thread nD τ).loc b) :=
  (StableHlo.after_of_forall_not_mem (b := Proc.devRef .tc b) _ _ h0).trans rfl

theorem keep3 (c : Dev nD) (b : Ref sig .tc) (hs0 : ∀ w, Pipeline.arrRef spec0 w ≠ b)
    (h1 : ∀ op ∈ (hostOps1 : List (HloOp τ sig (Elt Ideal))), (Proc.devRef .tc b : DevRef τ sig) ∉ op.writes) :
    W3 m ρ c (Proc.devRef .tc b) = W1 m ρ c (Proc.devRef .tc b) :=
  (StableHlo.after_of_forall_not_mem (b := Proc.devRef .tc b) _ _ h1).trans (W2_of_ne m ρ c b hs0)

theorem keep5 (c : Dev nD) (b : Ref sig .tc) (hs1 : ∀ w, Pipeline.arrRef spec1 w ≠ b)
    (h2 : ∀ op ∈ (hostOps2 : List (HloOp τ sig (Elt Ideal))), (Proc.devRef .tc b : DevRef τ sig) ∉ op.writes) :
    W5 m ρ c (Proc.devRef .tc b) = W3 m ρ c (Proc.devRef .tc b) :=
  (StableHlo.after_of_forall_not_mem (b := Proc.devRef .tc b) _ _ h2).trans (W4_of_ne m ρ c b hs1)

/-! ## Stage one's operands, and what the first stretch computes from the edge list -/

theorem V1_arg0 (c : Dev nD) : V1 m ρ c main_arg0 = (m ((c : Thread nD τ).loc main_arg0)) := keep1 m ρ c main_arg0 (by unwritten)
theorem V1_arg2 (c : Dev nD) : V1 m ρ c main_arg2 = (m ((c : Thread nD τ).loc main_arg2)) := keep1 m ρ c main_arg2 (by unwritten)

/-- The sources of the edges. -/
theorem W1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl
/-- The targets of the edges. -/
theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl
/-- The reciprocal of every node's degree. -/
theorem W1_v12 (c : Dev nD) : W1 m ρ c (Proc.devRef .tc main_v12) = Cert.ReferenceIdeal.Read.val_main_v41 (F := Ideal) (m ((c : Thread nD τ).loc main_arg1)) := by
  show StableHlo.after hostOps0 (W0 m ρ c) (Proc.devRef .tc main_v12) = _
  after_results_simp
  rfl
/-- The symmetric normalisation of every edge. -/
theorem W1_v27 (c : Dev nD) : W1 m ρ c (Proc.devRef .tc main_v27) = Cert.ReferenceIdeal.Read.val_main_v26 (F := Ideal) (m ((c : Thread nD τ).loc main_arg1)) := by
  show StableHlo.after hostOps0 (W0 m ρ c) (Proc.devRef .tc main_v27) = _
  after_results_simp
  rfl

/-! ## What the second stretch finds: stage one's product, and everything the first stretch left -/

theorem W2_v28 (c : Dev nD) : W2 m ρ c (Proc.devRef .tc main_v28) = Cert.ReferenceIdeal.Read.val_main_v4 (F := Ideal) (m ((c : Thread nD τ).loc main_arg0)) (m ((c : Thread nD τ).loc main_arg2)) := by
  rw [show W2 m ρ c (Proc.devRef .tc main_v28) = (dat0 (V1 m ρ) c).arrAt 2 cfg0.N from W2_arr m ρ c 2, final0, V1_arg0, V1_arg2]
  exact (Cert.ReferenceIdeal.Stages.stage1 _ _).symm
theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_v12 (c : Dev nD) : W2 m ρ c (Proc.devRef .tc main_v12) = Cert.ReferenceIdeal.Read.val_main_v41 (F := Ideal) (m ((c : Thread nD τ).loc main_arg1)) :=
  (W2_of_ne m ρ c main_v12 (by decide)).trans (W1_v12 m ρ c)
theorem W2_v27 (c : Dev nD) : W2 m ρ c (Proc.devRef .tc main_v27) = Cert.ReferenceIdeal.Read.val_main_v26 (F := Ideal) (m ((c : Thread nD τ).loc main_arg1)) :=
  (W2_of_ne m ρ c main_v27 (by decide)).trans (W1_v27 m ρ c)
theorem W2_arg3 (c : Dev nD) : W2 m ρ c (Proc.devRef .tc main_arg3) = (m ((c : Thread nD τ).loc main_arg3)) :=
  (W2_of_ne m ρ c main_arg3 (by decide)).trans (keep1 m ρ c main_arg3 (by unwritten))
theorem W2_arg4 (c : Dev nD) : W2 m ρ c (Proc.devRef .tc main_arg4) = (m ((c : Thread nD τ).loc main_arg4)) :=
  (W2_of_ne m ρ c main_arg4 (by decide)).trans (keep1 m ρ c main_arg4 (by unwritten))
theorem W2_arg5 (c : Dev nD) : W2 m ρ c (Proc.devRef .tc main_arg5) = (m ((c : Thread nD τ).loc main_arg5)) :=
  (W2_of_ne m ρ c main_arg5 (by decide)).trans (keep1 m ρ c main_arg5 (by unwritten))
theorem W2_arg6 (c : Dev nD) : W2 m ρ c (Proc.devRef .tc main_arg6) = (m ((c : Thread nD τ).loc main_arg6)) :=
  (W2_of_ne m ρ c main_arg6 (by decide)).trans (keep1 m ρ c main_arg6 (by unwritten))
theorem W2_arg7 (c : Dev nD) : W2 m ρ c (Proc.devRef .tc main_arg7) = (m ((c : Thread nD τ).loc main_arg7)) :=
  (W2_of_ne m ρ c main_arg7 (by decide)).trans (keep1 m ρ c main_arg7 (by unwritten))

/-! ## Stage two's operands: the first aggregation, the four rows of the normalisation, the second weights -/

theorem V3_v48 (c : Dev nD) : V3 m ρ c main_v48 = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v48) = _
  after_results_simp
  rw [W2_v28, W2_v1, W2_v3, W2_v12, W2_v27, W2_arg3]
  rfl
theorem V3_v49 (c : Dev nD) : V3 m ρ c main_v49 = shapeCast S1x128 (m ((c : Thread nD τ).loc main_arg4)) shapeCasts_S128_S1x128 := by
  show StableHlo.after hostOps1 (W2 m ρ c) (Proc.devRef .tc main_v49) = _
  after_results_simp
  rw [W2_arg4]
  rfl
theorem V3_v50 (c : Dev nD) : V3 m ρ c main_v50 = shapeCast S1x128 (m ((c : Thread nD τ).loc main_arg5)) shapeCasts_S128_S1x128 := by
  show StableHlo.after hostOps1 (W2 m ρ c) (Proc.devRef .tc main_v50) = _
  after_results_simp
  rw [W2_arg5]
  rfl
theorem V3_v51 (c : Dev nD) : V3 m ρ c main_v51 = shapeCast S1x128 (m ((c : Thread nD τ).loc main_arg6)) shapeCasts_S128_S1x128 := by
  show StableHlo.after hostOps1 (W2 m ρ c) (Proc.devRef .tc main_v51) = _
  after_results_simp
  rw [W2_arg6]
  rfl
theorem V3_v52 (c : Dev nD) : V3 m ρ c main_v52 = shapeCast S1x128 (m ((c : Thread nD τ).loc main_arg7)) shapeCasts_S128_S1x128 := by
  show StableHlo.after hostOps1 (W2 m ρ c) (Proc.devRef .tc main_v52) = _
  after_results_simp
  rw [W2_arg7]
  rfl
theorem V3_arg8 (c : Dev nD) : V3 m ρ c main_arg8 = (m ((c : Thread nD τ).loc main_arg8)) :=
  (keep3 m ρ c main_arg8 (by decide) (by unwritten)).trans (keep1 m ρ c main_arg8 (by unwritten))

/-! ## What the third stretch finds: stage two's result, and what the earlier stretches left -/

theorem W4_v53 (c : Dev nD) : W4 m ρ c (Proc.devRef .tc main_v53) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W4 m ρ c (Proc.devRef .tc main_v53) = (dat1 (V3 m ρ) c).arrAt 6 cfg1.N from W4_arr m ρ c 6, final1,
    V3_v48, V3_v49, V3_v50, V3_v51, V3_v52, V3_arg8, unrow_reshape, unrow_reshape, unrow_reshape, unrow_reshape]
  exact (Cert.ReferenceIdeal.Stages.stage2 _ _ _ _ _ _ _ _ _).symm
theorem W4_v1 (c : Dev nD) : W4 m ρ c (Proc.devRef .tc main_v1) = Cert.ReferenceIdeal.Read.val_main_v1 (F := Ideal) (m ((c : Thread nD τ).loc main_arg1)) :=
  (W4_of_ne m ρ c main_v1 (by decide)).trans ((keep3 m ρ c main_v1 (by decide) (by unwritten)).trans (W1_v1 m ρ c))
theorem W4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans ((keep3 m ρ c main_v3 (by decide) (by unwritten)).trans (W1_v3 m ρ c))
theorem W4_v12 (c : Dev nD) : W4 m ρ c (Proc.devRef .tc main_v12) = Cert.ReferenceIdeal.Read.val_main_v41 (F := Ideal) (m ((c : Thread nD τ).loc main_arg1)) :=
  (W4_of_ne m ρ c main_v12 (by decide)).trans ((keep3 m ρ c main_v12 (by decide) (by unwritten)).trans (W1_v12 m ρ c))
theorem W4_v27 (c : Dev nD) : W4 m ρ c (Proc.devRef .tc main_v27) = Cert.ReferenceIdeal.Read.val_main_v26 (F := Ideal) (m ((c : Thread nD τ).loc main_arg1)) :=
  (W4_of_ne m ρ c main_v27 (by decide)).trans ((keep3 m ρ c main_v27 (by decide) (by unwritten)).trans (W1_v27 m ρ c))
theorem W4_arg9 (c : Dev nD) : W4 m ρ c (Proc.devRef .tc main_arg9) = (m ((c : Thread nD τ).loc main_arg9)) :=
  (W4_of_ne m ρ c main_arg9 (by decide)).trans ((keep3 m ρ c main_arg9 (by decide) (by unwritten)).trans (keep1 m ρ c main_arg9 (by unwritten)))
theorem W4_arg10 (c : Dev nD) : W4 m ρ c (Proc.devRef .tc main_arg10) = (m ((c : Thread nD τ).loc main_arg10)) :=
  (W4_of_ne m ρ c main_arg10 (by decide)).trans ((keep3 m ρ c main_arg10 (by decide) (by unwritten)).trans (keep1 m ρ c main_arg10 (by unwritten)))
theorem W4_arg11 (c : Dev nD) : W4 m ρ c (Proc.devRef .tc main_arg11) = (m ((c : Thread nD τ).loc main_arg11)) :=
  (W4_of_ne m ρ c main_arg11 (by decide)).trans ((keep3 m ρ c main_arg11 (by decide) (by unwritten)).trans (keep1 m ρ c main_arg11 (by unwritten)))
theorem W4_arg12 (c : Dev nD) : W4 m ρ c (Proc.devRef .tc main_arg12) = (m ((c : Thread nD τ).loc main_arg12)) :=
  (W4_of_ne m ρ c main_arg12 (by decide)).trans ((keep3 m ρ c main_arg12 (by decide) (by unwritten)).trans (keep1 m ρ c main_arg12 (by unwritten)))
theorem W4_arg13 (c : Dev nD) : W4 m ρ c (Proc.devRef .tc main_arg13) = (m ((c : Thread nD τ).loc main_arg13)) :=
  (W4_of_ne m ρ c main_arg13 (by decide)).trans ((keep3 m ρ c main_arg13 (by decide) (by unwritten)).trans (keep1 m ρ c main_arg13 (by unwritten)))
theorem W4_arg15 (c : Dev nD) : W4 m ρ c (Proc.devRef .tc main_arg15) = (m ((c : Thread nD τ).loc main_arg15)) :=
  (W4_of_ne m ρ c main_arg15 (by decide)).trans ((keep3 m ρ c main_arg15 (by decide) (by unwritten)).trans (keep1 m ρ c main_arg15 (by unwritten)))

/-! ## Stage three's operands -/

theorem V5_v73 (c : Dev nD) : V5 m ρ c main_v73 = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v73) = _
  after_results_simp
  rw [W4_v53, W4_v1, W4_v3, W4_v12, W4_v27, W4_arg9]
  rfl
theorem V5_v74 (c : Dev nD) : V5 m ρ c main_v74 = shapeCast S1x64 (m ((c : Thread nD τ).loc main_arg10)) shapeCasts_S64_S1x64 := by
  show StableHlo.after hostOps2 (W4 m ρ c) (Proc.devRef .tc main_v74) = _
  after_results_simp
  rw [W4_arg10]
  rfl
theorem V5_v75 (c : Dev nD) : V5 m ρ c main_v75 = shapeCast S1x64 (m ((c : Thread nD τ).loc main_arg11)) shapeCasts_S64_S1x64 := by
  show StableHlo.after hostOps2 (W4 m ρ c) (Proc.devRef .tc main_v75) = _
  after_results_simp
  rw [W4_arg11]
  rfl
theorem V5_v76 (c : Dev nD) : V5 m ρ c main_v76 = shapeCast S1x64 (m ((c : Thread nD τ).loc main_arg12)) shapeCasts_S64_S1x64 := by
  show StableHlo.after hostOps2 (W4 m ρ c) (Proc.devRef .tc main_v76) = _
  after_results_simp
  rw [W4_arg12]
  rfl
theorem V5_v77 (c : Dev nD) : V5 m ρ c main_v77 = shapeCast S1x64 (m ((c : Thread nD τ).loc main_arg13)) shapeCasts_S64_S1x64 := by
  show StableHlo.after hostOps2 (W4 m ρ c) (Proc.devRef .tc main_v77) = _
  after_results_simp
  rw [W4_arg13]
  rfl
theorem V5_v78 (c : Dev nD) : V5 m ρ c main_v78 = shapeCast S1x2 (m ((c : Thread nD τ).loc main_arg15)) shapeCasts_S2_S1x2 := by
  show StableHlo.after hostOps2 (W4 m ρ c) (Proc.devRef .tc main_v78) = _
  after_results_simp
  rw [W4_arg15]
  rfl
theorem V5_arg14 (c : Dev nD) : V5 m ρ c main_arg14 = (m ((c : Thread nD τ).loc main_arg14)) :=
  (keep5 m ρ c main_arg14 (by decide) (by unwritten)).trans ((keep3 m ρ c main_arg14 (by decide) (by unwritten)).trans (keep1 m ρ c main_arg14 (by unwritten)))

/-! ## The result -/

/-- The kernel's result array, at the last boundary, is the reference's value of the launch arguments. -/
theorem result_eq (c : Dev nD) :
    W6 m ρ c (Proc.devRef .tc main_v79) = Cert.ReferenceIdeal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [show W6 m ρ c (Proc.devRef .tc main_v79) = (dat2 (V5 m ρ) c).arrAt 7 cfg2.N from W6_arr m ρ c 7, final2,
    V5_v73, V5_v74, V5_v75, V5_v76, V5_v77, V5_arg14, V5_v78, unrow_reshape, unrow_reshape, unrow_reshape, unrow_reshape, unrow_reshape]
  exact (Cert.ReferenceIdeal.Stages.stage3 _ _ _ _ _ _ _ _ _ _ _ _ _ _ _ _).symm

end Cert.KernelIdeal.Whole

end
-- ==== Proof.lean ====
/-
  A two-layer graph convolution network, computed by three pipelined matrix kernels with the graph aggregation between
  them on the host, against the same network written with whole-array operations.

  Both programs compute, from node features x, an edge list, two convolution layers (weights, bias, and the scale,
  shift, mean and variance of an inference-mode batch normalisation) and a final linear head:
    h₁ = aggregate(x·W₁) + b₁,   h₂ = aggregate(relu(norm₁(h₁))·W₂) + b₂,   out = relu(norm₂(h₂))·W_l + b_l,
  where aggregate(y)(v) = Σ_{edges u→v} y(u)/√(deg u · deg v) + y(v)/deg v and deg counts in-edges plus one self-loop.
  The kernel computes each of the three matrix products 2000 rows at a time, with the normalisation and the rectifier
  fused into the second and third; the aggregation between them is the very sequence of host operations the reference
  uses.  At exact arithmetic a row block of a product is the product of the row block, and a change of float format is
  the identity, so the three stages agree entry by entry (modules Region0–2 against RefLayers) and the host stretches
  agree operation by operation (module Glue); no algebraic law beyond that is used, and the finiteness of the inputs is
  never needed.  The idealisation pass rewrote nothing in the kernel, so the preservation claim is trivially true.
-/
import proofs.«136432_j83356725280823_1_alg».proof.Defs
import proofs.«136432_j83356725280823_1_alg».proof.Proof.Gen.Kernel
import proofs.«136432_j83356725280823_1_alg».proof.Proof.Gen.Kernel.Frame
import proofs.«136432_j83356725280823_1_alg».proof.Proof.Gen.KernelIdeal
import proofs.«136432_j83356725280823_1_alg».proof.Proof.Gen.KernelIdeal.Frame
import proofs.«136432_j83356725280823_1_alg».proof.Proof.Gen.ReferenceIdeal
import proofs.«136432_j83356725280823_1_alg».proof.Proof.Gen.ReferenceIdeal.Run
import proofs.«136432_j83356725280823_1_alg».proof.Proof.Gen.ReferenceIdeal.Read
import proofs.«136432_j83356725280823_1_alg».proof.Proof.Gen.Pre_finite_inputs
import proofs.«136432_j83356725280823_1_alg».proof.Proof.KernelRun
import proofs.«136432_j83356725280823_1_alg».proof.Proof.Glue
import Idealize.ShloMosaic.Adequacy
import Idealize.ShloMosaic.Init

noncomputable section

namespace Cert.Proof

open Idealize.ShloMosaic Idealize.SL.Sem

/-- The kernel as printed runs to completion without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealisation pass rewrote nothing. -/
theorem preserves : Cert.preserves_Kernel_KernelIdeal := trivial

/-- From memories that agree on the arguments both programs end with the same result array: the kernel's last
    boundary contents, which is the reference's value of the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v79),
    Cert.KernelIdeal.Whole.run_named m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v129_eq m' c).trans ?_
  obtain ⟨h0, h1, h2, h3, h4, h5, h6, h7, h8, h9, h10, h11, h12, h13, h14, h15⟩ := hagree c
  rw [h0, h1, h2, h3, h4, h5, h6, h7, h8, h9, h10, h11, h12, h13, h14, h15]
  exact (Cert.KernelIdeal.Whole.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
